-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8388608x4 : Shape := ⟨2, ![8388608, 4]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S8388608x4 : S_.BroadcastsInDim S8388608x4 (![] : Fin 0 → Fin S8388608x4.rank)
  reducesTo_S8388608x4_S_d0_1 : S8388608x4.ReducesTo [0, 1] S_

variable [Facts]

def fn {F : FTy → Type} [FloatOps F] (main_arg0 : FVec F S8388608x3 .f32) (main_arg1 : FVec F S8388608x4 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x3 : Shape := ⟨2, ![8388608, 3]⟩
abbrev S8388608x4 : Shape := ⟨2, ![8388608, 4]⟩
abbrev S8388608x9 : Shape := ⟨2, ![8388608, 9]⟩
abbrev S131072x3 : Shape := ⟨2, ![131072, 3]⟩
abbrev S131072x4 : Shape := ⟨2, ![131072, 4]⟩
abbrev S131072x9 : Shape := ⟨2, ![131072, 9]⟩
abbrev S131072x1 : Shape := ⟨2, ![131072, 1]⟩
abbrev S131072 : Shape := ⟨1, ![131072]⟩
abbrev S8388608x3x3 : Shape := ⟨3, ![8388608, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S8388608x3, .f32⟩
  | .hbm, ⟨1, _⟩ => ⟨S8388608x4, .f32⟩
  | .hbm, ⟨2, _⟩ => ⟨S8388608x9, .f32⟩
  | .hbm, ⟨3, _⟩ => ⟨S8388608x3x3, .f32⟩
  | .local _ .vmem, ⟨0, _⟩ => ⟨S131072x3, .f32⟩
  | .local _ .vmem, ⟨1, _⟩ => ⟨S131072x3, .f32⟩
  | .local _ .vmem, ⟨2, _⟩ => ⟨S131072x4, .f32⟩
  | .local _ .vmem, ⟨3, _⟩ => ⟨S131072x4, .f32⟩
  | .local _ .vmem, ⟨4, _⟩ => ⟨S131072x9, .f32⟩
  | .local _ .vmem, ⟨5, _⟩ => ⟨S131072x9, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S131072x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S131072x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S131072x3_S131072x3_0_0 : ∀ a, (![0, 0] : Fin 2 → Nat) a + S131072x3.size a ≤ S131072x3.size a
  h_S131072x3 : 0 < S131072x3.numel
  inb_S131072x4_S131072x4_0_0 : ∀ a, (![0, 0] : Fin 2 → Nat) a + S131072x4.size a ≤ S131072x4.size a
  h_S131072x4 : 0 < S131072x4.numel
  slices_S131072x3_o0_0_S131072x1 : S131072x3.Slices ![0, 0] S131072x1
  shapeCasts_S131072x1_S131072 : S131072x1.ShapeCasts S131072
  slices_S131072x3_o0_1_S131072x1 : S131072x3.Slices ![0, 1] S131072x1
  slices_S131072x3_o0_2_S131072x1 : S131072x3.Slices ![0, 2] S131072x1
  reduces_S131072x4_S131072 : S131072x4.Reduces [1] S131072
  shapeCasts_S131072_S131072x1 : S131072.ShapeCasts S131072x1
  broadcasts_S131072x1_S131072x4 : S131072x1.Broadcasts S131072x4
  slices_S131072x4_o0_0_S131072x1 : S131072x4.Slices ![0, 0] S131072x1
  slices_S131072x4_o0_1_S131072x1 : S131072x4.Slices ![0, 1] S131072x1
  slices_S131072x4_o0_2_S131072x1 : S131072x4.Slices ![0, 2] S131072x1
  slices_S131072x4_o0_3_S131072x1 : S131072x4.Slices ![0, 3] S131072x1
  concatenates_S131072x1_S131072x1_S131072x1_S131072x1_S131072x1_S131072x1_S131072x1_S131072x1_S131072x1_S131072x9_d1 : Shape.Concatenates [S131072x1, S131072x1, S131072x1, S131072x1, S131072x1, S131072x1, S131072x1, S131072x1, S131072x1] S131072x9 1
  inb_S131072x9_S131072x9_0_0 : ∀ a, (![0, 0] : Fin 2 → Nat) a + S131072x9.size a ≤ S131072x9.size a
  h_S131072x9 : 0 < S131072x9.numel
  shapeCasts_S8388608x9_S8388608x3x3 : S8388608x9.ShapeCasts S8388608x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072x3.size a ≤ S8388608x3.size a
  hwx0_0 : ∀ i : grid0.Coords, EltTy.bits .f32 = 32 ∨ (Rect.block (s := S8388608x3) S131072x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S131072x4.size a ≤ S8388608x4.size a
  hwx0_1 : ∀ i : grid0.Coords, EltTy.bits .f32 = 32 ∨ (Rect.block (s := S8388608x4) S131072x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S131072x9.size a ≤ S8388608x9.size a
  hwx0_2 : ∀ i : grid0.Coords, EltTy.bits .f32 = 32 ∨ (Rect.block (s := S8388608x9) S131072x9.size (cc0_transform_2 i) (hinb0_2 i)).WholeWords (EltTy.packing .f32)

variable [Facts₀]

abbrev win0_0 : Pipeline.Window sig grid0 :=
  Pipeline.Window.ofSpec (Memref.whole main_arg0) S131072x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S131072x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S131072x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608x4 : Shape := ⟨2, ![8388608, 4]⟩
abbrev S_ : Shape := ⟨0, ![]⟩
abbrev S8388608 : Shape := ⟨1, ![8388608]⟩
abbrev S8388608x1 : Shape := ⟨2, ![8388608, 1]⟩
abbrev S8388608x9 : Shape := ⟨2, ![8388608, 9]⟩
abbrev S8388608x3x3 : Shape := ⟨3, ![8388608, 3, 3]⟩
abbrev S8388608x1x3 : Shape := ⟨3, ![8388608, 1, 3]⟩

abbrev nBuf : Space → Nat
  | .hbm => 99
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608x4, .f32⟩
  | .hbm, ⟨2, _⟩ => ⟨S8388608x3, .f32⟩
  | .hbm, ⟨3, _⟩ => ⟨S8388608x4, .f32⟩
  | .hbm, ⟨4, _⟩ => ⟨S_, .f32⟩
  | .hbm, ⟨5, _⟩ => ⟨S8388608, .f32⟩
  | .hbm, ⟨6, _⟩ => ⟨S8388608x1, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S8388608x4, .f32⟩
  | .hbm, ⟨12, _⟩ => ⟨S8388608x4, .f32⟩
  | .hbm, ⟨13, _⟩ => ⟨S8388608x1, .f32⟩
  | .hbm, ⟨14, _⟩ => ⟨S8388608, .f32⟩
  | .hbm, ⟨15, _⟩ => ⟨S8388608x1, .f32⟩
  | .hbm, ⟨16, _⟩ => ⟨S8388608, .f32⟩
  | .hbm, ⟨17, _⟩ => ⟨S8388608x1, .f32⟩
  | .hbm, ⟨18, _⟩ => ⟨S8388608, .f32⟩
  | .hbm, ⟨19, _⟩ => ⟨S8388608x1, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S_, .f32⟩
  | .hbm, ⟨25, _⟩ => ⟨S8388608, .f32⟩
  | .hbm, ⟨26, _⟩ => ⟨S8388608, .f32⟩
  | .hbm, ⟨27, _⟩ => ⟨S_, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S_, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S8388608, .f32⟩
  | .hbm, ⟨39, _⟩ => ⟨S_, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S8388608, .f32⟩
  | .hbm, ⟨50, _⟩ => ⟨S8388608, .f32⟩
  | .hbm, ⟨51, _⟩ => ⟨S_, .f32⟩
  | .hbm, ⟨52, _⟩ => ⟨S8388608, .f32⟩
  | .hbm, ⟨53, _⟩ => ⟨S8388608, .f32⟩
  | .hbm, ⟨54, _⟩ => ⟨S_, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S8388608, .f32⟩
  | .hbm, ⟨59, _⟩ => ⟨S8388608, .f32⟩
  | .hbm, ⟨60, _⟩ => ⟨S_, .f32⟩
  | .hbm, ⟨61, _⟩ => ⟨S8388608, .f32⟩
  | .hbm, ⟨62, _⟩ => ⟨S8388608, .f32⟩
  | .hbm, ⟨63, _⟩ => ⟨S8388608, .f32⟩
  | .hbm, ⟨64, _⟩ => ⟨S8388608, .f32⟩
  | .hbm, ⟨65, _⟩ => ⟨S8388608, .f32⟩
  | .hbm, ⟨66, _⟩ => ⟨S_, .f32⟩
  | .hbm, ⟨67, _⟩ => ⟨S8388608, .f32⟩
  | .hbm, ⟨68, _⟩ => ⟨S8388608, .f32⟩
  | .hbm, ⟨69, _⟩ => ⟨S8388608, .f32⟩
  | .hbm, ⟨70, _⟩ => ⟨S8388608, .f32⟩
  | .hbm, ⟨71, _⟩ => ⟨S8388608, .f32⟩
  | .hbm, ⟨72, _⟩ => ⟨S_, .f32⟩
  | .hbm, ⟨73, _⟩ => ⟨S8388608, .f32⟩
  | .hbm, ⟨74, _⟩ => ⟨S8388608, .f32⟩
  | .hbm, ⟨75, _⟩ => ⟨S8388608, .f32⟩
  | .hbm, ⟨76, _⟩ => ⟨S8388608, .f32⟩
  | .hbm, ⟨77, _⟩ => ⟨S8388608, .f32⟩
  | .hbm, ⟨78, _⟩ => ⟨S_, .f32⟩
  | .hbm, ⟨79, _⟩ => ⟨S8388608, .f32⟩
  | .hbm, ⟨80, _⟩ => ⟨S8388608, .f32⟩
  | .hbm, ⟨81, _⟩ => ⟨S_, .f32⟩
  | .hbm, ⟨82, _⟩ => ⟨S8388608, .f32⟩
  | .hbm, ⟨83, _⟩ => ⟨S8388608, .f32⟩
  | .hbm, ⟨84, _⟩ => ⟨S8388608x1, .f32⟩
  | .hbm, ⟨85, _⟩ => ⟨S8388608x1, .f32⟩
  | .hbm, ⟨86, _⟩ => ⟨S8388608x1, .f32⟩
  | .hbm, ⟨87, _⟩ => ⟨S8388608x1, .f32⟩
  | .hbm, ⟨88, _⟩ => ⟨S8388608x1, .f32⟩
  | .hbm, ⟨89, _⟩ => ⟨S8388608x1, .f32⟩
  | .hbm, ⟨90, _⟩ => ⟨S8388608x1, .f32⟩
  | .hbm, ⟨91, _⟩ => ⟨S8388608x1, .f32⟩
  | .hbm, ⟨92, _⟩ => ⟨S8388608x1, .f32⟩
  | .hbm, ⟨93, _⟩ => ⟨S8388608x9, .f32⟩
  | .hbm, ⟨94, _⟩ => ⟨S8388608x3x3, .f32⟩
  | .hbm, ⟨95, _⟩ => ⟨S8388608x1x3, .f32⟩
  | .hbm, ⟨96, _⟩ => ⟨S8388608x3x3, .f32⟩
  | .hbm, ⟨97, _⟩ => ⟨S8388608x3x3, .f32⟩
  | .hbm, ⟨98, _⟩ => ⟨S8388608x3x3, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]

class Facts₀ : Prop where
  reducesTo_S8388608x4_S8388608_d1 : S8388608x4.ReducesTo [1] S8388608
  h_S_ : 0 < S_.numel
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S8388608x1_S8388608x4_0_1 : S8388608x1.BroadcastsInDim S8388608x4 (![0, 1] : Fin 2 → Fin S8388608x4.rank)
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  concatenates_S8388608x1_S8388608x1_S8388608x1_S8388608x1_S8388608x1_S8388608x1_S8388608x1_S8388608x1_S8388608x1_S8388608x9_d1 : Shape.Concatenates [S8388608x1, S8388608x1, S8388608x1, S8388608x1, S8388608x1, S8388608x1, S8388608x1, S8388608x1, S8388608x1] S8388608x9 1
  shapeCasts_S8388608x9_S8388608x3x3 : S8388608x9.ShapeCasts S8388608x3x3
  bcast_S8388608x3_S8388608x1x3_0_2 : S8388608x3.BroadcastsInDim S8388608x1x3 (![0, 2] : Fin 2 → Fin S8388608x1x3.rank)
  bcast_S8388608x1x3_S8388608x3x3_0_1_2 : S8388608x1x3.BroadcastsInDim S8388608x3x3 (![0, 1, 2] : Fin 3 → Fin S8388608x3x3.rank)
  dot_S8388608x3x3_S8388608x3x3_S8388608x3x3_2_2_1_1_0_0_wf : DotDims.WF S8388608x3x3 S8388608x3x3 S8388608x3x3 [2] [2] [1] [1] [0] [0]

variable [Facts₀]

def dot_S8388608x3x3_S8388608x3x3_S8388608x3x3_2_2_1_1_0_0 : DotDims S8388608x3x3 S8388608x3x3 S8388608x3x3 where
  lhsContracting := [2]
  rhsContracting := [2]
  lhsNonContracting := [1]
  rhsNonContracting := [1]
  lhsBatch := [0]
  rhsBatch := [0]
  wf := dot_S8388608x3x3_S8388608x3x3_S8388608x3x3_2_2_1_1_0_0_wf

class Facts : Prop extends Facts₀ where

variable [Facts]
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.Spec.lean ====
/-
  The covariance of a rotated, scaled axis frame, row by row — the mathematics both programs compute.

  A row consists of three log-scales `a` and a quaternion `b = (r, x, y, z)`.  The scales are `s k = exp (a k)`; the
  quaternion is normalised by `max (√(Σ b²)) ε` (`unitq`); its rotation matrix `R` is the usual one (`rot9`, the nine
  entries row-major); and the result is the symmetric matrix `M Mᵀ` with `M = R · diag s`, whose entry `(i, j)` is
  `Σ k, (R i k · s k) · (R j k · s k)`.

  One program forms each entry as `Σ k, (R i k · R j k) · (s k · s k)`, computing only the upper triangle and copying it
  below the diagonal (`cov9`, the nine entries row-major); the other forms `M` first and contracts it with itself
  (`covSum`).  The two agree on the extended reals because multiplication there is commutative and associative:
  `(R i k · R j k) · (s k · s k) = (R i k · s k) · (R j k · s k)` (`cov9_eq_covSum`); no cancellation or distributivity
  is used, so nothing has to be finite.
-/
import Idealize.ShloMosaic.PureOps.Ideal
import Idealize.ShloMosaic.PureOps.Ideal.Laws
import Idealize.ShloMosaic.Lib.ValueIdx
import proofs.«121810_j23046794510522_1_alg».proof.Proof.LibColumns

noncomputable section

namespace Cert.GsCov

open Idealize.ShloMosaic Idealize.ShloMosaic.ValueIdx Cert.LibColumns

/-- The floor under the quaternion's norm (the single-precision word both programs write for 1e-12). -/
abbrev lit_eps : EReal := Ideal.ofBits .f32 0x2B8CBCCC#32
/-- The number two. -/
abbrev lit_two : EReal := Ideal.ofBits .f32 0x40000000#32
/-- The number one. -/
abbrev lit_one : EReal := Ideal.ofBits .f32 0x3F800000#32

/-- A quaternion divided by its norm, the norm kept above `lit_eps`: component `c`. -/
def unitq (b : Fin 4 → EReal) (c : Fin 4) : EReal :=
  Ideal.div (b c) (max (Ideal.sqrt (∑ k : Fin 4, b k * b k)) lit_eps)

/-- The rotation matrix of a quaternion `q = (r, x, y, z)`, its nine entries row-major. -/
def rot9 (q : Fin 4 → EReal) (j : Fin 9) : EReal :=
  pick9
    (lit_one - lit_two * (q 2 * q 2 + q 3 * q 3))
    (lit_two * (q 1 * q 2 - q 0 * q 3))
    (lit_two * (q 1 * q 3 + q 0 * q 2))
    (lit_two * (q 1 * q 2 + q 0 * q 3))
    (lit_one - lit_two * (q 1 * q 1 + q 3 * q 3))
    (lit_two * (q 2 * q 3 - q 0 * q 1))
    (lit_two * (q 1 * q 3 - q 0 * q 2))
    (lit_two * (q 2 * q 3 + q 0 * q 1))
    (lit_one - lit_two * (q 1 * q 1 + q 2 * q 2))
    j

/-! The nine entries one by one. -/
theorem rot9_0 (q : Fin 4 → EReal) : rot9 q 0 = lit_one - lit_two * (q 2 * q 2 + q 3 * q 3) := rfl
theorem rot9_1 (q : Fin 4 → EReal) : rot9 q 1 = lit_two * (q 1 * q 2 - q 0 * q 3) := rfl
theorem rot9_2 (q : Fin 4 → EReal) : rot9 q 2 = lit_two * (q 1 * q 3 + q 0 * q 2) := rfl
theorem rot9_3 (q : Fin 4 → EReal) : rot9 q 3 = lit_two * (q 1 * q 2 + q 0 * q 3) := rfl
theorem rot9_4 (q : Fin 4 → EReal) : rot9 q 4 = lit_one - lit_two * (q 1 * q 1 + q 3 * q 3) := rfl
theorem rot9_5 (q : Fin 4 → EReal) : rot9 q 5 = lit_two * (q 2 * q 3 - q 0 * q 1) := rfl
theorem rot9_6 (q : Fin 4 → EReal) : rot9 q 6 = lit_two * (q 1 * q 3 - q 0 * q 2) := rfl
theorem rot9_7 (q : Fin 4 → EReal) : rot9 q 7 = lit_two * (q 2 * q 3 + q 0 * q 1) := rfl
theorem rot9_8 (q : Fin 4 → EReal) : rot9 q 8 = lit_one - lit_two * (q 1 * q 1 + q 2 * q 2) := rfl

/-- The rotation's entry `j` is the `j`-th of its nine entries. -/
theorem rot9_pick (q : Fin 4 → EReal) (j : Fin 9) :
    rot9 q j = pick9 (rot9 q 0) (rot9 q 1) (rot9 q 2) (rot9 q 3) (rot9 q 4) (rot9 q 5) (rot9 q 6) (rot9 q 7) (rot9 q 8) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- The covariance's nine entries row-major, each formed as `Σ k, (R i k · R j k) · s2 k` from the squared scales `s2`,
    the entries below the diagonal being those above it. -/
def cov9 (s2 : Fin 3 → EReal) (R : Fin 9 → EReal) (j : Fin 9) : EReal :=
  pick9
    (R 0 * R 0 * s2 0 + R 1 * R 1 * s2 1 + R 2 * R 2 * s2 2)
    (R 0 * R 3 * s2 0 + R 1 * R 4 * s2 1 + R 2 * R 5 * s2 2)
    (R 0 * R 6 * s2 0 + R 1 * R 7 * s2 1 + R 2 * R 8 * s2 2)
    (R 0 * R 3 * s2 0 + R 1 * R 4 * s2 1 + R 2 * R 5 * s2 2)
    (R 3 * R 3 * s2 0 + R 4 * R 4 * s2 1 + R 5 * R 5 * s2 2)
    (R 3 * R 6 * s2 0 + R 4 * R 7 * s2 1 + R 5 * R 8 * s2 2)
    (R 0 * R 6 * s2 0 + R 1 * R 7 * s2 1 + R 2 * R 8 * s2 2)
    (R 3 * R 6 * s2 0 + R 4 * R 7 * s2 1 + R 5 * R 8 * s2 2)
    (R 6 * R 6 * s2 0 + R 7 * R 7 * s2 1 + R 8 * R 8 * s2 2)
    j

/-- Position `3 i + k` of a row-major 3 × 3 matrix. -/
abbrev at33 (i k : Fin 3) : Fin 9 := ⟨3 * i.val + k.val, by have := i.isLt; have := k.isLt; omega⟩

/-- Entry `(i, j)` of `M Mᵀ` for `M = R · diag s`: the contraction over the columns. -/
def covSum (s : Fin 3 → EReal) (R : Fin 9 → EReal) (i j : Fin 3) : EReal :=
  ∑ k : Fin 3, (R (at33 i k) * s k) * (R (at33 j k) * s k)

/-- The two arrangements agree: products commute and re-associate on the extended reals. -/
theorem cov9_eq_covSum (s : Fin 3 → EReal) (R : Fin 9 → EReal) (i j : Fin 3) :
    cov9 (fun k => s k * s k) R (at33 i j) = covSum s R i j := by
  have e : ∀ x y u : EReal, x * y * (u * u) = x * u * (y * u) := fun x y u => mul_mul_mul_comm x y u u
  have e' : ∀ x y u : EReal, y * x * (u * u) = x * u * (y * u) := fun x y u => by rw [mul_comm y x]; exact e x y u
  unfold covSum
  rw [Fin.sum_univ_three]
  match i, j with
  | ⟨0, _⟩, ⟨0, _⟩ => exact congrArg₂ (· + ·) (congrArg₂ (· + ·) (e _ _ _) (e _ _ _)) (e _ _ _)
  | ⟨0, _⟩, ⟨1, _⟩ => exact congrArg₂ (· + ·) (congrArg₂ (· + ·) (e _ _ _) (e _ _ _)) (e _ _ _)
  | ⟨0, _⟩, ⟨2, _⟩ => exact congrArg₂ (· + ·) (congrArg₂ (· + ·) (e _ _ _) (e _ _ _)) (e _ _ _)
  | ⟨1, _⟩, ⟨0, _⟩ => exact congrArg₂ (· + ·) (congrArg₂ (· + ·) (e' _ _ _) (e' _ _ _)) (e' _ _ _)
  | ⟨1, _⟩, ⟨1, _⟩ => exact congrArg₂ (· + ·) (congrArg₂ (· + ·) (e _ _ _) (e _ _ _)) (e _ _ _)
  | ⟨1, _⟩, ⟨2, _⟩ => exact congrArg₂ (· + ·) (congrArg₂ (· + ·) (e _ _ _) (e _ _ _)) (e _ _ _)
  | ⟨2, _⟩, ⟨0, _⟩ => exact congrArg₂ (· + ·) (congrArg₂ (· + ·) (e' _ _ _) (e' _ _ _)) (e' _ _ _)
  | ⟨2, _⟩, ⟨1, _⟩ => exact congrArg₂ (· + ·) (congrArg₂ (· + ·) (e' _ _ _) (e' _ _ _)) (e' _ _ _)
  | ⟨2, _⟩, ⟨2, _⟩ => exact congrArg₂ (· + ·) (congrArg₂ (· + ·) (e _ _ _) (e _ _ _)) (e _ _ _)

/-- The result as a flat `[n, 9]` array (nine covariance entries per row) of the two argument arrays, for any number of
    rows `n`: row `p` depends on row `p` of each argument only. -/
def covFlat {n : ℕ} (X0 : (⟨2, ![n, 3]⟩ : Shape).Idx → EReal) (X1 : (⟨2, ![n, 4]⟩ : Shape).Idx → EReal) :
    (⟨2, ![n, 9]⟩ : Shape).Idx → EReal := fun i =>
  cov9 (fun k => Ideal.exp (X0 (ix2 (i 0) k)) * Ideal.exp (X0 (ix2 (i 0) k)))
    (rot9 (unitq fun c => X1 (ix2 (i 0) c))) (i 1)

/-- The flat array at an index whose coordinates are `(r, q)`: entry `q` of the covariance of row `r`. -/
theorem covFlat_at {n : ℕ} (X0 : (⟨2, ![n, 3]⟩ : Shape).Idx → EReal) (X1 : (⟨2, ![n, 4]⟩ : Shape).Idx → EReal)
    (i : (⟨2, ![n, 9]⟩ : Shape).Idx) (r : Fin n) (q : Fin 9) (h0 : (i 0).val = r.val) (h1 : (i 1).val = q.val) :
    covFlat X0 X1 i = cov9 (fun k => Ideal.exp (X0 (ix2 r k)) * Ideal.exp (X0 (ix2 r k)))
      (rot9 (unitq fun c => X1 (ix2 r c))) q := by
  have e0 : i 0 = r := Fin.ext h0
  have e1 : i 1 = q := Fin.ext h1
  unfold covFlat
  rw [e0, e1]

/-- The result as an `[n, 3, 3]` array: the flat array's nine entries per row read as a 3 × 3 matrix. -/
def cov {n : ℕ} (X0 : (⟨2, ![n, 3]⟩ : Shape).Idx → EReal) (X1 : (⟨2, ![n, 4]⟩ : Shape).Idx → EReal) :
    (⟨3, ![n, 3, 3]⟩ : Shape).Idx → EReal := fun i =>
  covFlat X0 X1 (ix2 (i 0) (at33 (i 1) (i 2)))

/-- The result at row `r`, matrix position `(a, b)`: entry `3 a + b` of the covariance of row `r`. -/
theorem cov_at {n : ℕ} (X0 : (⟨2, ![n, 3]⟩ : Shape).Idx → EReal) (X1 : (⟨2, ![n, 4]⟩ : Shape).Idx → EReal)
    (r : Fin n) (a b : Fin 3) :
    cov X0 X1 (ix3 r a b) = cov9 (fun k => Ideal.exp (X0 (ix2 r k)) * Ideal.exp (X0 (ix2 r k)))
      (rot9 (unitq fun c => X1 (ix2 r c))) (at33 a b) := rfl

end Cert.GsCov

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelRow.lean ====
/-
  What one block of the kernel's result holds, row by row.

  The kernel's body takes a block of `131072` rows of log-scales `x0` (three per row) and of quaternions `x1` (four per
  row) and stores, per row, nine numbers.  Every operation of the body acts on each row separately, so the stored block
  is read here at an explicit row `p` and column `j`: the squared scales `exp² (x0 p k)` (`sq_scale*`), the normalised
  quaternion (`unit_at`: the row's sum of squares, its root kept above the floor, the quotient), the nine rotation
  entries (`rot_*`), and the nine covariance entries as the body groups them (`stored_at`).  Together: the stored
  block is `Cert.GsCov.covFlat` of the two loaded blocks (`stored_eq`).
-/
import proofs.«121810_j23046794510522_1_alg».proof.Proof.Gen.KernelIdeal.Frame
import proofs.«121810_j23046794510522_1_alg».proof.Proof.Spec
import proofs.«121810_j23046794510522_1_alg».proof.Proof.LibColumns
import proofs.«121810_j23046794510522_1_alg».proof.Proof.LibKeepdims

noncomputable section

namespace Cert.KernelIdeal.RowValue

open Cert.KernelIdeal Cert.KernelIdeal.Gen
open Idealize.ShloMosaic Idealize.ShloMosaic.ValueIdx
open Cert.GsCov Cert.LibColumns Cert.LibKeepdims

/-- A row of the quaternion block. -/
abbrev qrow (x1 : Vec Ideal S131072x4 .f32) (p : Fin 131072) : Fin 4 → EReal := fun c => x1 (ix2 p c)

/-- The squared scale of column `k` of a row: `exp (x0 p k) · exp (x0 p k)`. -/
abbrev sq (x0 : Vec Ideal S131072x3 .f32) (p : Fin 131072) : Fin 3 → EReal :=
  fun k => Ideal.exp (x0 (ix2 p k)) * Ideal.exp (x0 (ix2 p k))

/-- The exponential of a block, read at an index. -/
theorem exp_apply {s : Shape} {φ : FTy} (a : FVec Ideal s φ) (i : s.Idx) : exp a i = Ideal.exp (a i) := rfl
/-- The square root of a block, read at an index. -/
theorem sqrt_apply {s : Shape} {φ : FTy} (a : FVec Ideal s φ) (i : s.Idx) : sqrt a i = Ideal.sqrt (a i) := rfl

/-! ## The squared scales -/

theorem sq_scale0 (x0 : Vec Ideal S131072x3 .f32) (p : Fin 131072) : k0_pay3 (F := Ideal) x0 (ix1 p) = sq x0 p 0 := by
  unfold k0_pay3 k0_pay2
  simp (config := { implicitDefEqProofs := false }) only [mulf_apply, col_apply 0 _ _ _ p (0 : Fin 3) rfl, exp_apply]

theorem sq_scale1 (x0 : Vec Ideal S131072x3 .f32) (p : Fin 131072) : k0_pay4 (F := Ideal) x0 (ix1 p) = sq x0 p 1 := by
  unfold k0_pay4 k0_pay2
  simp (config := { implicitDefEqProofs := false }) only [mulf_apply, col_apply 1 _ _ _ p (1 : Fin 3) rfl, exp_apply]

theorem sq_scale2 (x0 : Vec Ideal S131072x3 .f32) (p : Fin 131072) : k0_pay5 (F := Ideal) x0 (ix1 p) = sq x0 p 2 := by
  unfold k0_pay5 k0_pay2
  simp (config := { implicitDefEqProofs := false }) only [mulf_apply, col_apply 2 _ _ _ p (2 : Fin 3) rfl, exp_apply]

/-! ## The normalised quaternion -/

/-- The row's sum of squares. -/
theorem normSq_at (x1 : Vec Ideal S131072x4 .f32) (p : Fin 131072) :
    multiReduction (F := Ideal) .add [1] S131072 (mulf x1 x1) 0x00000000#32 reduces_S131072x4_S131072 (.inl rfl) rfl (ix1 p)
      = ∑ k : Fin 4, qrow x1 p k * qrow x1 p k :=
  rowSum_apply (mulf x1 x1) reduces_S131072x4_S131072 (.inl rfl) rfl p

/-- Entry `(p, c)` of the normalised block: the quaternion's component over its floored norm. -/
theorem unit_at (x1 : Vec Ideal S131072x4 .f32) (p : Fin 131072) (c : Fin 4) :
    k0_pay6 (F := Ideal) x1 (ix2 p c) = unitq (qrow x1 p) c := by
  unfold k0_pay6 unitq
  simp (config := { implicitDefEqProofs := false }) only [divf_apply, broadcastTo_a1_ab_apply, maximumf_apply, sqrt_apply, shapeCast_a_a1_apply, broadcast_apply]
  exact congrArg (fun t => Ideal.div (x1 (ix2 p c)) (max (Ideal.sqrt t) lit_eps)) (normSq_at x1 p)

theorem unit0 (x1 : Vec Ideal S131072x4 .f32) (p : Fin 131072) : k0_pay7 (F := Ideal) x1 (ix1 p) = unitq (qrow x1 p) 0 := by
  unfold k0_pay7
  simp (config := { implicitDefEqProofs := false }) only [col_apply 0 _ _ _ p (0 : Fin 4) rfl, unit_at]
theorem unit1 (x1 : Vec Ideal S131072x4 .f32) (p : Fin 131072) : k0_pay8 (F := Ideal) x1 (ix1 p) = unitq (qrow x1 p) 1 := by
  unfold k0_pay8
  simp (config := { implicitDefEqProofs := false }) only [col_apply 1 _ _ _ p (1 : Fin 4) rfl, unit_at]
theorem unit2 (x1 : Vec Ideal S131072x4 .f32) (p : Fin 131072) : k0_pay9 (F := Ideal) x1 (ix1 p) = unitq (qrow x1 p) 2 := by
  unfold k0_pay9
  simp (config := { implicitDefEqProofs := false }) only [col_apply 2 _ _ _ p (2 : Fin 4) rfl, unit_at]
theorem unit3 (x1 : Vec Ideal S131072x4 .f32) (p : Fin 131072) : k0_pay10 (F := Ideal) x1 (ix1 p) = unitq (qrow x1 p) 3 := by
  unfold k0_pay10
  simp (config := { implicitDefEqProofs := false }) only [col_apply 3 _ _ _ p (3 : Fin 4) rfl, unit_at]

/-! ## The rotation's nine entries

Each is a polynomial of the normalised quaternion's four components, row by row. -/

/-- The normalised quaternion of row `p`. -/
abbrev uq (x1 : Vec Ideal S131072x4 .f32) (p : Fin 131072) : Fin 4 → EReal := unitq (qrow x1 p)

theorem rot_0 (x1 : Vec Ideal S131072x4 .f32) (p : Fin 131072) : k0_pay11 (F := Ideal) x1 (ix1 p) = rot9 (uq x1 p) 0 := by
  unfold k0_pay11
  rw [rot9_0]
  simp (config := { implicitDefEqProofs := false }) only [subf_apply, mulf_apply, addf_apply, broadcast_apply, unit0, unit1, unit2, unit3, Ideal.ofBits_def]
theorem rot_1 (x1 : Vec Ideal S131072x4 .f32) (p : Fin 131072) : k0_pay12 (F := Ideal) x1 (ix1 p) = rot9 (uq x1 p) 1 := by
  unfold k0_pay12
  rw [rot9_1]
  simp (config := { implicitDefEqProofs := false }) only [subf_apply, mulf_apply, addf_apply, broadcast_apply, unit0, unit1, unit2, unit3, Ideal.ofBits_def]
theorem rot_2 (x1 : Vec Ideal S131072x4 .f32) (p : Fin 131072) : k0_pay13 (F := Ideal) x1 (ix1 p) = rot9 (uq x1 p) 2 := by
  unfold k0_pay13
  rw [rot9_2]
  simp (config := { implicitDefEqProofs := false }) only [subf_apply, mulf_apply, addf_apply, broadcast_apply, unit0, unit1, unit2, unit3, Ideal.ofBits_def]
theorem rot_3 (x1 : Vec Ideal S131072x4 .f32) (p : Fin 131072) :
    k0_pay15 (F := Ideal) (k0_pay14 x1) (Scalar.ofBits (F := Ideal) .f32 0x40000000#32) (ix1 p) = rot9 (uq x1 p) 3 := by
  unfold k0_pay15 k0_pay14
  rw [rot9_3]
  simp (config := { implicitDefEqProofs := false }) only [subf_apply, mulf_apply, addf_apply, broadcast_apply, unit0, unit1, unit2, unit3, Ideal.ofBits_def]
theorem rot_4 (x1 : Vec Ideal S131072x4 .f32) (p : Fin 131072) :
    k0_pay16 (F := Ideal) (k0_pay8 x1) (k0_pay10 x1) (ix1 p) = rot9 (uq x1 p) 4 := by
  unfold k0_pay16
  rw [rot9_4]
  simp (config := { implicitDefEqProofs := false }) only [subf_apply, mulf_apply, addf_apply, broadcast_apply, unit0, unit1, unit2, unit3, Ideal.ofBits_def]
theorem rot_5 (x1 : Vec Ideal S131072x4 .f32) (p : Fin 131072) :
    k0_pay17 (F := Ideal) (k0_pay7 x1) (k0_pay8 x1) (k0_pay9 x1) (k0_pay10 x1) (ix1 p) = rot9 (uq x1 p) 5 := by
  unfold k0_pay17
  rw [rot9_5]
  simp (config := { implicitDefEqProofs := false }) only [subf_apply, mulf_apply, addf_apply, broadcast_apply, unit0, unit1, unit2, unit3, Ideal.ofBits_def]
theorem rot_6 (x1 : Vec Ideal S131072x4 .f32) (p : Fin 131072) :
    k0_pay18 (F := Ideal) (k0_pay7 x1) (k0_pay8 x1) (k0_pay9 x1) (k0_pay10 x1) (ix1 p) = rot9 (uq x1 p) 6 := by
  unfold k0_pay18
  rw [rot9_6]
  simp (config := { implicitDefEqProofs := false }) only [subf_apply, mulf_apply, addf_apply, broadcast_apply, unit0, unit1, unit2, unit3, Ideal.ofBits_def]
theorem rot_7 (x1 : Vec Ideal S131072x4 .f32) (p : Fin 131072) :
    k0_pay19 (F := Ideal) (k0_pay7 x1) (k0_pay8 x1) (k0_pay9 x1) (k0_pay10 x1) (ix1 p) = rot9 (uq x1 p) 7 := by
  unfold k0_pay19
  rw [rot9_7]
  simp (config := { implicitDefEqProofs := false }) only [subf_apply, mulf_apply, addf_apply, broadcast_apply, unit0, unit1, unit2, unit3, Ideal.ofBits_def]
theorem rot_8 (x1 : Vec Ideal S131072x4 .f32) (p : Fin 131072) :
    k0_pay20 (F := Ideal) (k0_pay8 x1) (k0_pay9 x1) (ix1 p) = rot9 (uq x1 p) 8 := by
  unfold k0_pay20
  rw [rot9_8]
  simp (config := { implicitDefEqProofs := false }) only [subf_apply, mulf_apply, addf_apply, broadcast_apply, unit0, unit1, unit2, unit3, Ideal.ofBits_def]

end Cert.KernelIdeal.RowValue

end
-- ==== Proof.KernelStored.lean ====
/-
  The nine numbers the kernel stores per row, assembled.

  The body joins nine columns, one per covariance entry (row-major): the three entries of the first row of the matrix,
  then the second row with its first entry copied from the first row, then the third row with its first two entries
  copied.  Each column is `Σ k, (R i k · R j k) · s2 k` of the row's rotation entries and squared scales, computed with
  the products grouped as written.  Read at row `p` and column `j`, the joined block is therefore `Cert.GsCov.cov9` of
  the row's squared scales and rotation (`stored_at`), that is `Cert.GsCov.covFlat` of the two loaded blocks
  (`stored_eq`).
-/
import proofs.«121810_j23046794510522_1_alg».proof.Proof.KernelRow

noncomputable section

namespace Cert.KernelIdeal.RowValue

open Cert.KernelIdeal Cert.KernelIdeal.Gen
open Idealize.ShloMosaic Idealize.ShloMosaic.ValueIdx
open Cert.GsCov Cert.LibColumns Cert.LibKeepdims

/-! ## The columns, entry by entry -/

theorem diag_row0 (v9 v10 v11 v34 v39 v44 : FVec Ideal S131072 .f32) (i : S131072.Idx) :
    k0_pay21 (F := Ideal) v9 v10 v11 v34 v39 v44 i
      = v34 i * v34 i * v9 i + v39 i * v39 i * v10 i + v44 i * v44 i * v11 i := by
  unfold k0_pay21
  simp (config := { implicitDefEqProofs := false }) only [addf_apply, mulf_apply]

theorem row0_row1 (v9 v10 v11 v21 v23 v25 v27 v34 v39 v44 v47 : FVec Ideal S131072 .f32) (cst : Ideal .f32) (i : S131072.Idx) :
    k0_pay22 (F := Ideal) v9 v10 v11 v21 v23 v25 v27 v34 v39 v44 v47 cst i
      = v34 i * k0_pay15 (F := Ideal) v47 cst i * v9 i + v39 i * k0_pay16 (F := Ideal) v23 v27 i * v10 i
        + v44 i * k0_pay17 (F := Ideal) v21 v23 v25 v27 i * v11 i := by
  unfold k0_pay22
  simp (config := { implicitDefEqProofs := false }) only [addf_apply, mulf_apply]

theorem row0_row2_head (v9 v10 v21 v23 v25 v27 v34 v39 : FVec Ideal S131072 .f32) (i : S131072.Idx) :
    k0_pay23 (F := Ideal) v9 v10 v21 v23 v25 v27 v34 v39 i
      = v34 i * k0_pay18 (F := Ideal) v21 v23 v25 v27 i * v9 i + v39 i * k0_pay19 (F := Ideal) v21 v23 v25 v27 i * v10 i := by
  unfold k0_pay23
  simp (config := { implicitDefEqProofs := false }) only [addf_apply, mulf_apply]

theorem row0_row2_tail (v23 v25 v44 : FVec Ideal S131072 .f32) (i : S131072.Idx) :
    k0_pay24 (F := Ideal) v23 v25 v44 i = v44 i * k0_pay20 (F := Ideal) v23 v25 i := by
  unfold k0_pay24
  simp (config := { implicitDefEqProofs := false }) only [mulf_apply]

/-- The joined block at row `p`, column `j`, from the thirteen vectors the join is built of. -/
theorem join_at (S0 S1 S2 R10 R11 R12 R20 R21 R22 C00 C01 C02a C02b : FVec Ideal S131072 .f32) (p : Fin 131072) (j : Fin 9) :
    k0_pay1 (F := Ideal) S0 S1 S2 R10 R11 R12 R20 R21 R22 C00 C01 C02a C02b (ix2 p j)
      = pick9 (C00 (ix1 p)) (C01 (ix1 p)) (C02a (ix1 p) + C02b (ix1 p) * S2 (ix1 p)) (C01 (ix1 p))
          (R10 (ix1 p) * R10 (ix1 p) * S0 (ix1 p) + R11 (ix1 p) * R11 (ix1 p) * S1 (ix1 p) + R12 (ix1 p) * R12 (ix1 p) * S2 (ix1 p))
          (R10 (ix1 p) * R20 (ix1 p) * S0 (ix1 p) + R11 (ix1 p) * R21 (ix1 p) * S1 (ix1 p) + R12 (ix1 p) * R22 (ix1 p) * S2 (ix1 p))
          (C02a (ix1 p) + C02b (ix1 p) * S2 (ix1 p))
          (R10 (ix1 p) * R20 (ix1 p) * S0 (ix1 p) + R11 (ix1 p) * R21 (ix1 p) * S1 (ix1 p) + R12 (ix1 p) * R22 (ix1 p) * S2 (ix1 p))
          (R20 (ix1 p) * R20 (ix1 p) * S0 (ix1 p) + R21 (ix1 p) * R21 (ix1 p) * S1 (ix1 p) + R22 (ix1 p) * R22 (ix1 p) * S2 (ix1 p)) j := by
  unfold k0_pay1
  refine (concat9_apply _ _ _ _ _ _ _ _ _ _ p j).trans ?_
  rw [pick9_app]
  refine pick9_congr ?_ ?_ ?_ ?_ ?_ ?_ ?_ ?_ ?_ j
  all_goals rw [shapeCast_a_a1_apply]
  all_goals simp (config := { implicitDefEqProofs := false }) only [addf_apply, mulf_apply]

/-! ## The stored block -/

/-- What the body stores, as a function of the two loaded blocks. -/
abbrev stored (x0 : Vec Ideal S131072x3 .f32) (x1 : Vec Ideal S131072x4 .f32) : FVec Ideal S131072x9 .f32 :=
  k0_pay1 (F := Ideal) (k0_pay3 x0) (k0_pay4 x0) (k0_pay5 x0) (k0_pay15 (k0_pay14 x1) (Scalar.ofBits .f32 0x40000000#32)) (k0_pay16 (k0_pay8 x1) (k0_pay10 x1)) (k0_pay17 (k0_pay7 x1) (k0_pay8 x1) (k0_pay9 x1) (k0_pay10 x1)) (k0_pay18 (k0_pay7 x1) (k0_pay8 x1) (k0_pay9 x1) (k0_pay10 x1)) (k0_pay19 (k0_pay7 x1) (k0_pay8 x1) (k0_pay9 x1) (k0_pay10 x1)) (k0_pay20 (k0_pay8 x1) (k0_pay9 x1)) (k0_pay21 (k0_pay3 x0) (k0_pay4 x0) (k0_pay5 x0) (k0_pay11 x1) (k0_pay12 x1) (k0_pay13 x1)) (k0_pay22 (k0_pay3 x0) (k0_pay4 x0) (k0_pay5 x0) (k0_pay7 x1) (k0_pay8 x1) (k0_pay9 x1) (k0_pay10 x1) (k0_pay11 x1) (k0_pay12 x1) (k0_pay13 x1) (k0_pay14 x1) (Scalar.ofBits .f32 0x40000000#32)) (k0_pay23 (k0_pay3 x0) (k0_pay4 x0) (k0_pay7 x1) (k0_pay8 x1) (k0_pay9 x1) (k0_pay10 x1) (k0_pay11 x1) (k0_pay12 x1)) (k0_pay24 (k0_pay8 x1) (k0_pay9 x1) (k0_pay13 x1))

/-- The stored block at row `p`, column `j`: the covariance entry `j` of the row. -/
theorem stored_at (x0 : Vec Ideal S131072x3 .f32) (x1 : Vec Ideal S131072x4 .f32) (p : Fin 131072) (j : Fin 9) :
    stored x0 x1 (ix2 p j) = cov9 (sq x0 p) (rot9 (uq x1 p)) j := by
  unfold stored
  rw [join_at]
  simp (config := { implicitDefEqProofs := false }) only [diag_row0, row0_row1, row0_row2_head, row0_row2_tail, rot_0, rot_1, rot_2, rot_3, rot_4, rot_5, rot_6, rot_7,
    rot_8, sq_scale0, sq_scale1, sq_scale2]
  rfl

/-- The stored block is the flat covariance array of the two loaded blocks. -/
theorem stored_eq (x0 : Vec Ideal S131072x3 .f32) (x1 : Vec Ideal S131072x4 .f32) :
    stored x0 x1 = covFlat (n := 131072) x0 x1 := by
  funext i
  obtain ⟨p, j, rfl⟩ : ∃ (p : Fin 131072) (j : Fin 9), i = ix2 p j := ⟨i 0, i 1, eq_ix2 i⟩
  exact stored_at x0 x1 p j

end Cert.KernelIdeal.RowValue

end
-- ==== Proof.KernelArray.lean ====
/-
  From blocks to the whole array: what the kernel's region leaves in its result array.

  The region runs the body at 64 grid points; point `t` stages rows `131072 t … 131072 t + 131071` of each argument array
  (all columns) and writes the stored block back to the same rows of the `[8388608, 9]` result.  Because every stored
  row depends only on the same row of the arguments, what point `t` writes back is block `t` of ONE whole-array function,
  `Cert.GsCov.covFlat` of the argument arrays (`flushed_eq`); the 64 blocks cover every row (`cover`), so the result array
  ends as that function (`final`).
-/
import proofs.«121810_j23046794510522_1_alg».proof.Proof.Gen.KernelIdeal.Frame
import proofs.«121810_j23046794510522_1_alg».proof.Proof.KernelStored
import Idealize.ShloMosaic.Lib.Pipeline.Value

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx
open Cert.GsCov Cert.KernelIdeal.RowValue

variable (m : (ℓ : Loc nD τ sig) → Buf (Elt Ideal) ℓ)

theorem zero_offsets : (![0, 0] : Fin 2 → Nat) = fun _ => 0 := funext fun a => by fin_cases a <;> rfl

/-- The printed index maps, decided over the 64 grid points: each window's block row is the point's, its block column 0. -/
theorem block_index : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 63 :=
  (by decide +kernel : ∀ t : Fin grid0.N, _)

/-- Every block row below 64 is some point's. -/
theorem block_onto : ∀ q0 : Fin 64, ∃ t : Fin cfg0.N, win0_2.index t = ![q0.val, 0] :=
  (by decide +kernel : ∀ q0 : Fin 64, ∃ t : Fin grid0.N, win0_2.index t = ![q0.val, 0])

/-- Row `p` of point `t`'s block of the scales is row `r = 131072 t + p` of the scales array. -/
theorem scales_block (c : Dev nD) (t : Fin cfg0.N) (p : Fin 131072) (k : Fin 3) (r : Fin 8388608)
    (hr : r.val = win0_2.index t (0 : Fin 2) * 131072 + p.val) :
    iblk m c 0 t (ix2 p k) = V m c main_arg0 (ix2 r k) := by
  obtain ⟨e0, e1, e2, e3, e4, e5⟩ := block_index t
  have h : ((cfg0.win 0).blk t).view.emb (ix2 p k) = ix2 r k := by
    funext a; apply Fin.ext
    match a with
    | ⟨0, _⟩ => show win0_0.index t (0 : Fin 2) * 131072 + 1 * p.val = r.val; omega
    | ⟨1, _⟩ => show win0_0.index t (1 : Fin 2) * 3 + 1 * k.val = k.val; omega
  show V m c main_arg0 (((cfg0.win 0).blk t).view.emb (ix2 p k)) = V m c main_arg0 (ix2 r k)
  rw [h]

/-- Row `p` of point `t`'s block of the quaternions is row `r = 131072 t + p` of the quaternion array. -/
theorem quats_block (c : Dev nD) (t : Fin cfg0.N) (p : Fin 131072) (k : Fin 4) (r : Fin 8388608)
    (hr : r.val = win0_2.index t (0 : Fin 2) * 131072 + p.val) :
    iblk m c 1 t (ix2 p k) = V m c main_arg1 (ix2 r k) := by
  obtain ⟨e0, e1, e2, e3, e4, e5⟩ := block_index t
  have h : ((cfg0.win 1).blk t).view.emb (ix2 p k) = ix2 r k := by
    funext a; apply Fin.ext
    match a with
    | ⟨0, _⟩ => show win0_1.index t (0 : Fin 2) * 131072 + 1 * p.val = r.val; omega
    | ⟨1, _⟩ => show win0_1.index t (1 : Fin 2) * 4 + 1 * k.val = k.val; omega
  show V m c main_arg1 (((cfg0.win 1).blk t).view.emb (ix2 p k)) = V m c main_arg1 (ix2 r k)
  rw [h]

/-- WHAT POINT `t` WRITES BACK is block `t` of the flat covariance array of the argument arrays. -/
theorem flushed_eq (c : Dev nD) (t : Fin cfg0.N) :
    (dats m 0 c).flushed 2 t
      = ((cfg0.win 2).blk t).view.read (Elt Ideal) (covFlat (n := 8388608) (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S131072x3) zero_offsets, View.ld_unit_zero (S := S131072x4) zero_offsets]
  obtain ⟨e0, e1, e2, e3, e4, e5⟩ := block_index t
  funext j
  obtain ⟨p, q, rfl⟩ : ∃ (p : Fin 131072) (q : Fin 9), j = ix2 p q := ⟨j 0, j 1, eq_ix2 j⟩
  show stored (iblk m c 0 t) (iblk m c 1 t) (ix2 p q)
    = covFlat (n := 8388608) (V m c main_arg0) (V m c main_arg1) (((cfg0.win 2).blk t).view.emb (ix2 p q))
  have hp : p.val < 131072 := p.isLt
  have hq : q.val < 9 := q.isLt
  let r : Fin 8388608 := ⟨win0_2.index t (0 : Fin 2) * 131072 + p.val, by omega⟩
  have h0 : ((((cfg0.win 2).blk t).view.emb (ix2 p q)) 0).val = r.val := by
    show win0_2.index t (0 : Fin 2) * 131072 + 1 * p.val = win0_2.index t (0 : Fin 2) * 131072 + p.val; omega
  have h1 : ((((cfg0.win 2).blk t).view.emb (ix2 p q)) 1).val = q.val := by
    show win0_2.index t (1 : Fin 2) * 9 + 1 * q.val = q.val; omega
  rw [stored_at, covFlat_at _ _ _ r q h0 h1]
  have hs : sq (iblk m c 0 t) p
      = fun k => Ideal.exp (V m c main_arg0 (ix2 r k)) * Ideal.exp (V m c main_arg0 (ix2 r k)) :=
    funext fun k => by show Ideal.exp (iblk m c 0 t (ix2 p k)) * Ideal.exp (iblk m c 0 t (ix2 p k)) = _; rw [scales_block m c t p k r rfl]
  have hu : uq (iblk m c 1 t) p = unitq fun k => V m c main_arg1 (ix2 r k) :=
    congrArg unitq (funext fun k => quats_block m c t p k r rfl)
  rw [hs, hu]

/-- An index of the result array is in point `t`'s block iff each coordinate is in the block's range on its axis. -/
theorem mem_block (t : Fin cfg0.N) (i : S8388608x9.Idx) :
    i ∈ ((cfg0.win 2).blk t).view.set ↔ ∀ a : Fin 2, win0_2.index t a * S131072x9.size a ≤ (i a).val
      ∧ (i a).val < win0_2.index t a * S131072x9.size a + S131072x9.size a := by
  show i ∈ ((View.whole main_v0).slice (win0_2.rect t)).set ↔ _
  rw [View.set_slice_whole, Rect.mem_set_unit]
  exact Iff.rfl

/-- Every index of the result array lies in some point's block: row `r` in the block of point `r / 131072`. -/
theorem cover (i : S8388608x9.Idx) :
    ∃ t : Fin cfg0.N, (cfg0.win 2).flush t = true ∧ i ∈ ((cfg0.win 2).blk t).view.set := by
  have hi0 : (i 0).val < 8388608 := (i 0).isLt
  have hi1 : (i 1).val < 9 := (i 1).isLt
  obtain ⟨t, ht⟩ := block_onto ⟨(i 0).val / 131072, by omega⟩
  have q0 : win0_2.index t (0 : Fin 2) = (i 0).val / 131072 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 131072 ≤ (i 0).val ∧ (i 0).val < win0_2.index t (0 : Fin 2) * 131072 + 131072
    omega
  | ⟨1, _⟩ =>
    show win0_2.index t (1 : Fin 2) * 9 ≤ (i 1).val ∧ (i 1).val < win0_2.index t (1 : Fin 2) * 9 + 9
    omega

/-- THE RESULT ARRAY after the region: the flat covariance array of the argument arrays as the region finds them. -/
theorem final (c : Dev nD) :
    (dats m 0 c).arrAt 2 cfg0.N = covFlat (n := 8388608) (V m c main_arg0) (V m c main_arg1) :=
  (dats m 0 c).arrAt_eq_of_cover 2 _ (fun t _ => flushed_eq m c t) cover

end Cert.KernelIdeal.ArrValue

end
-- ==== Proof.KernelRun.lean ====
/-
  The kernel program's result.

  After the region the program re-reads the flat `[8388608, 9]` result as `[8388608, 3, 3]`: entry `(r, a, b)` is the flat
  entry `(r, 3 a + b)` (`reshape_at`: the two indices have the same row-major position).  So the program's result is
  `Cert.GsCov.cov` of its two arguments (`result_eq`), and every weakly fair execution ends there with the arguments
  unchanged (`run`).
-/
import proofs.«121810_j23046794510522_1_alg».proof.Proof.Gen.KernelIdeal.Frame
import proofs.«121810_j23046794510522_1_alg».proof.Proof.KernelArray
import Idealize.ShloMosaic.Lib.StableHlo.Run
import Idealize.ShloMosaic.Lib.Pipeline.Value

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx
open Cert.GsCov

variable (m : (ℓ : Loc nD τ sig) → Buf (Elt Ideal) ℓ) (ρ : Dev nD → PrngReg)

/-- An `[n, 9]` array read as `[n, 3, 3]`: entry `(r, a, b)` is entry `(r, 3 a + b)`. -/
theorem reshape_at {n : ℕ} (X : (⟨2, ![n, 9]⟩ : Shape).Idx → EReal)
    (h : (⟨2, ![n, 9]⟩ : Shape).ShapeCasts ⟨3, ![n, 3, 3]⟩) (r : Fin n) (a b : Fin 3) :
    shapeCast ⟨3, ![n, 3, 3]⟩ X h (ix3 r a b) = X (ix2 r (at33 a b)) :=
  shapeCast_apply X h _ _ (by
    have ha := a.isLt
    have hb := b.isLt
    rw [Shape.rowMajor_val_two, Shape.rowMajor_val_three]
    show r.val * 9 + (3 * a.val + b.val) = (r.val * 3 + a.val) * 3 + b.val
    omega)

/-- The program's result buffer is no array of the region: the lines after the region leave it at their result. -/
theorem result_rest : main_v1 ∈ Pipeline.restRefs sig cfg0.spec :=
  Pipeline.mem_restRefs_of main_v1 rfl (by decide)

/-- THE PROGRAM'S RESULT: the covariance array of the two arguments. -/
theorem result_eq (c : Dev nD) :
    Pipeline.afterTail₀ cfgs (dats m) 0 (V0 m) [hostOps1] c main_v1
      = cov (n := 8388608) (m ((c : Thread nD τ).loc main_arg0)) (m ((c : Thread nD τ).loc main_arg1)) := by
  unfold Pipeline.afterTail₀
  show StableHlo.after hostOps1 _ (Proc.devRef .tc main_v1) = _
  after_results
  funext i
  obtain ⟨r, a, b, rfl⟩ : ∃ (r : Fin 8388608) (a b : Fin 3), i = ix3 r a b := ⟨i 0, i 1, i 2, eq_ix3 i⟩
  show shapeCast S8388608x3x3 (Pipeline.withArrays spec0 c (V0 m c) (fun w => (dats m 0 c).arrAt w cfg0.N)
    (Proc.devRef .tc main_v0)) shapeCasts_S8388608x9_S8388608x3x3 (ix3 r a b) = _
  have hA : Pipeline.withArrays spec0 c (V0 m c) (fun w => (dats m 0 c).arrAt w cfg0.N) (Proc.devRef .tc main_v0)
      = covFlat (n := 8388608) (V m c main_arg0) (V m c main_arg1) :=
    (Pipeline.withArrays_arr spec0 launch0.win.arr_inj c _ _ 2).trans (final m c)
  rw [reshape_at, hA, V_main_arg0, V_main_arg1]
  rfl

/-- The frame run re-posted: the result at the covariance array of the arguments, the arguments unchanged. -/
theorem run : θ_run defs (onTc (τ := τ) (main (F := Ideal))) ⟨m, fun _ => 0, ρ⟩ fun r => ∀ c : Dev nD,
      r.2.mem ((c : Thread nD τ).loc main_v1)
        = cov (n := 8388608) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 result_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrValue

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.ReferenceRow.lean ====
/-
  The reference program, row by row.

  Read at an explicit row `n` the reference computes, from the same two argument arrays: the row's sum of squares of
  the quaternion (`sumsq_at`), its floored norm and the normalised quaternion (`norm_at`, `unit_at`, `unit0` … `unit3`),
  the nine rotation entries (`rot0_at` … `rot8_at`), joined as nine columns and read as a 3 × 3 matrix per row
  (`rotFlat_at`, `rot33_at`), each column `k` of that matrix scaled by `exp` of the row's `k`-th log-scale (`scaled_at`), and
  the product of the scaled matrix with its own transpose (`result_eq`): entry `(a, b)` is
  `Σ k, (R a k · s k) · (R b k · s k)`, which is the entry of `Cert.GsCov.cov` by `cov9_eq_covSum`.
-/
import proofs.«121810_j23046794510522_1_alg».proof.Proof.Gen.ReferenceIdeal.Read
import proofs.«121810_j23046794510522_1_alg».proof.Proof.Spec
import proofs.«121810_j23046794510522_1_alg».proof.Proof.LibColumns
import proofs.«121810_j23046794510522_1_alg».proof.Proof.LibIdx

noncomputable section

namespace Cert.ReferenceIdeal.RefValue

open Cert.ReferenceIdeal Cert.ReferenceIdeal.Gen Cert.ReferenceIdeal.Read
open Idealize.ShloMosaic Idealize.ShloMosaic.ValueIdx
open Cert.GsCov Cert.LibColumns Cert.Proof.LibIdx

/-- The normalised quaternion of row `n`. -/
abbrev uq (x1 : (⟨S8388608x4, .f32⟩ : BufTy).Contents (Elt Ideal)) (n : Fin 8388608) : Fin 4 → EReal := unitq fun c => x1 (ix2 n c)

/-! ## The normalised quaternion -/

theorem sumsq_at (x1 : (⟨S8388608x4, .f32⟩ : BufTy).Contents (Elt Ideal)) (n : Fin 8388608) :
    val_main_call0_v1 (F := Ideal) x1 (ix1 n) = ∑ k : Fin 4, x1 (ix2 n k) * x1 (ix2 n k) := by
  rw [val_main_call0_v1_apply]
  have hz : val_main_call0_cst (F := Ideal) (Shape.Idx.first h_S_) = 0 :=
    (val_main_call0_cst_apply _).trans Ideal.ofBits_zero_f32
  rw [hz, zero_add]
  refine Finset.sum_congr rfl fun k _ => ?_
  have hi : idx_main_call0_v1 (ix1 n) k = ix2 n k :=
    funext fun a => Fin.ext (by match a with | ⟨0, _⟩ => rfl | ⟨1, _⟩ => rfl)
  rw [hi, val_main_call0_v0_apply, Ideal.mulf_def]

theorem norm_at (x1 : (⟨S8388608x4, .f32⟩ : BufTy).Contents (Elt Ideal)) (n : Fin 8388608) :
    val_main_v3 (F := Ideal) x1 (ix2 n (0 : Fin 1))
      = max (Ideal.sqrt (∑ k : Fin 4, x1 (ix2 n k) * x1 (ix2 n k))) lit_eps := by
  have h2 : idx_main_call0_v2 (ix2 n (0 : Fin 1)) = ix1 n := ix1_ext _ n rfl
  rw [val_main_v3_apply, val_main_v1_apply, val_main_call0_v2_apply, h2, sumsq_at, val_main_v2_apply, val_main_cst_apply,
    Ideal.maximumf_def, Ideal.hostUnary_sqrt_def, Ideal.ofBits_def]

theorem unit_at (x1 : (⟨S8388608x4, .f32⟩ : BufTy).Contents (Elt Ideal)) (n : Fin 8388608) (c : Fin 4) : val_main_v5 (F := Ideal) x1 (ix2 n c) = uq x1 n c := by
  have h4 : idx_main_v4 (ix2 n c) = ix2 n (0 : Fin 1) := ix2_ext _ n 0 rfl rfl
  rw [val_main_v5_apply, val_main_v4_apply, h4, norm_at, Ideal.hostDivf_def]
  rfl

theorem unit0 (x1 : (⟨S8388608x4, .f32⟩ : BufTy).Contents (Elt Ideal)) (n : Fin 8388608) : val_main_v7 (F := Ideal) x1 (ix1 n) = uq x1 n 0 := by
  have h : idx_main_v6 (idx_main_v7 (ix1 n)) = ix2 n (0 : Fin 4) := ix2_ext _ n 0 (Nat.div_one _) rfl
  rw [val_main_v7_apply, val_main_v6_apply, h, unit_at]
theorem unit1 (x1 : (⟨S8388608x4, .f32⟩ : BufTy).Contents (Elt Ideal)) (n : Fin 8388608) : val_main_v9 (F := Ideal) x1 (ix1 n) = uq x1 n 1 := by
  have h : idx_main_v8 (idx_main_v9 (ix1 n)) = ix2 n (1 : Fin 4) := ix2_ext _ n 1 (Nat.div_one _) rfl
  rw [val_main_v9_apply, val_main_v8_apply, h, unit_at]
theorem unit2 (x1 : (⟨S8388608x4, .f32⟩ : BufTy).Contents (Elt Ideal)) (n : Fin 8388608) : val_main_v11 (F := Ideal) x1 (ix1 n) = uq x1 n 2 := by
  have h : idx_main_v10 (idx_main_v11 (ix1 n)) = ix2 n (2 : Fin 4) := ix2_ext _ n 2 (Nat.div_one _) rfl
  rw [val_main_v11_apply, val_main_v10_apply, h, unit_at]
theorem unit3 (x1 : (⟨S8388608x4, .f32⟩ : BufTy).Contents (Elt Ideal)) (n : Fin 8388608) : val_main_v13 (F := Ideal) x1 (ix1 n) = uq x1 n 3 := by
  have h : idx_main_v12 (idx_main_v13 (ix1 n)) = ix2 n (3 : Fin 4) := ix2_ext _ n 3 (Nat.div_one _) rfl
  rw [val_main_v13_apply, val_main_v12_apply, h, unit_at]

/-! ## The rotation's nine entries -/

/-- Every pointwise stage between the normalised quaternion and a rotation entry, read at an index, down to the
    quaternion's four components. -/
local macro "read_pointwise" : tactic => `(tactic|
  simp (config := { implicitDefEqProofs := false }) only [val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply,
    unit0, unit1, unit2, unit3, Ideal.subf_def, Ideal.mulf_def, Ideal.addf_def, Ideal.ofBits_def])

theorem rot0_at (x1 : (⟨S8388608x4, .f32⟩ : BufTy).Contents (Elt Ideal)) (n : Fin 8388608) : val_main_v20 (F := Ideal) x1 (ix1 n) = rot9 (uq x1 n) 0 := by
  rw [rot9_0]
  read_pointwise
theorem rot1_at (x1 : (⟨S8388608x4, .f32⟩ : BufTy).Contents (Elt Ideal)) (n : Fin 8388608) : val_main_v25 (F := Ideal) x1 (ix1 n) = rot9 (uq x1 n) 1 := by
  rw [rot9_1]
  read_pointwise
theorem rot2_at (x1 : (⟨S8388608x4, .f32⟩ : BufTy).Contents (Elt Ideal)) (n : Fin 8388608) : val_main_v30 (F := Ideal) x1 (ix1 n) = rot9 (uq x1 n) 2 := by
  rw [rot9_2]
  read_pointwise
theorem rot3_at (x1 : (⟨S8388608x4, .f32⟩ : BufTy).Contents (Elt Ideal)) (n : Fin 8388608) : val_main_v35 (F := Ideal) x1 (ix1 n) = rot9 (uq x1 n) 3 := by
  rw [rot9_3]
  read_pointwise
theorem rot4_at (x1 : (⟨S8388608x4, .f32⟩ : BufTy).Contents (Elt Ideal)) (n : Fin 8388608) : val_main_v42 (F := Ideal) x1 (ix1 n) = rot9 (uq x1 n) 4 := by
  rw [rot9_4]
  read_pointwise
theorem rot5_at (x1 : (⟨S8388608x4, .f32⟩ : BufTy).Contents (Elt Ideal)) (n : Fin 8388608) : val_main_v47 (F := Ideal) x1 (ix1 n) = rot9 (uq x1 n) 5 := by
  rw [rot9_5]
  read_pointwise
theorem rot6_at (x1 : (⟨S8388608x4, .f32⟩ : BufTy).Contents (Elt Ideal)) (n : Fin 8388608) : val_main_v52 (F := Ideal) x1 (ix1 n) = rot9 (uq x1 n) 6 := by
  rw [rot9_6]
  read_pointwise
theorem rot7_at (x1 : (⟨S8388608x4, .f32⟩ : BufTy).Contents (Elt Ideal)) (n : Fin 8388608) : val_main_v57 (F := Ideal) x1 (ix1 n) = rot9 (uq x1 n) 7 := by
  rw [rot9_7]
  read_pointwise
theorem rot8_at (x1 : (⟨S8388608x4, .f32⟩ : BufTy).Contents (Elt Ideal)) (n : Fin 8388608) : val_main_v64 (F := Ideal) x1 (ix1 n) = rot9 (uq x1 n) 8 := by
  rw [rot9_8]
  read_pointwise

/-- The nine entries joined side by side: column `j` of row `n`. -/
theorem rotFlat_at (x1 : (⟨S8388608x4, .f32⟩ : BufTy).Contents (Elt Ideal)) (n : Fin 8388608) (j : Fin 9) : val_main_v74 (F := Ideal) x1 (ix2 n j) = rot9 (uq x1 n) j := by
  unfold val_main_v74
  refine (concat9_apply _ _ _ _ _ _ _ _ _ _ n j).trans ?_
  rw [pick9_app, rot9_pick]
  refine pick9_congr ?_ ?_ ?_ ?_ ?_ ?_ ?_ ?_ ?_ j
  · rw [val_main_v65_apply, show idx_main_v65 (ix2 n (0 : Fin 1)) = ix1 n from ix1_ext _ n rfl, rot0_at]
  · rw [val_main_v66_apply, show idx_main_v66 (ix2 n (0 : Fin 1)) = ix1 n from ix1_ext _ n rfl, rot1_at]
  · rw [val_main_v67_apply, show idx_main_v67 (ix2 n (0 : Fin 1)) = ix1 n from ix1_ext _ n rfl, rot2_at]
  · rw [val_main_v68_apply, show idx_main_v68 (ix2 n (0 : Fin 1)) = ix1 n from ix1_ext _ n rfl, rot3_at]
  · rw [val_main_v69_apply, show idx_main_v69 (ix2 n (0 : Fin 1)) = ix1 n from ix1_ext _ n rfl, rot4_at]
  · rw [val_main_v70_apply, show idx_main_v70 (ix2 n (0 : Fin 1)) = ix1 n from ix1_ext _ n rfl, rot5_at]
  · rw [val_main_v71_apply, show idx_main_v71 (ix2 n (0 : Fin 1)) = ix1 n from ix1_ext _ n rfl, rot6_at]
  · rw [val_main_v72_apply, show idx_main_v72 (ix2 n (0 : Fin 1)) = ix1 n from ix1_ext _ n rfl, rot7_at]
  · rw [val_main_v73_apply, show idx_main_v73 (ix2 n (0 : Fin 1)) = ix1 n from ix1_ext _ n rfl, rot8_at]

/-- The joined entries read as a 3 × 3 matrix per row. -/
theorem rot33_at (x1 : (⟨S8388608x4, .f32⟩ : BufTy).Contents (Elt Ideal)) (n : Fin 8388608) (a k : Fin 3) :
    val_main_v75 (F := Ideal) x1 (ix3 n a k) = rot9 (uq x1 n) (at33 a k) := by
  have ha := a.isLt
  have hk := k.isLt
  have h : idx_main_v75 (ix3 n a k) = ix2 n (at33 a k) :=
    ix2_ext _ n (at33 a k) (by show ((n.val * 3 + a.val) * 3 + k.val) / 9 = n.val; omega)
      (by show ((n.val * 3 + a.val) * 3 + k.val) % 9 = 3 * a.val + k.val; omega)
  rw [val_main_v75_apply, h, rotFlat_at]

/-! ## The scaled matrix and its product with its transpose -/

/-- The scales, spread over the rows of each matrix: entry `(a, k)` is the scale of column `k`. -/
theorem scale_at (x0 : (⟨S8388608x3, .f32⟩ : BufTy).Contents (Elt Ideal)) (n : Fin 8388608) (a k : Fin 3) :
    val_main_v77 (F := Ideal) x0 (ix3 n a k) = Ideal.exp (x0 (ix2 n k)) := by
  have h : idx_main_v76 (idx_main_v77 (ix3 n a k)) = ix2 n k := ix2_ext _ n k rfl rfl
  rw [val_main_v77_apply, val_main_v76_apply, h, val_main_v0_apply, Ideal.hostUnary_exp_def]

/-- The scaled matrix `M = R · diag s`. -/
theorem scaled_at (x0 : (⟨S8388608x3, .f32⟩ : BufTy).Contents (Elt Ideal)) (x1 : (⟨S8388608x4, .f32⟩ : BufTy).Contents (Elt Ideal)) (n : Fin 8388608) (a k : Fin 3) :
    val_main_v78 (F := Ideal) x0 x1 (ix3 n a k) = rot9 (uq x1 n) (at33 a k) * Ideal.exp (x0 (ix2 n k)) := by
  rw [val_main_v78_apply, rot33_at, scale_at, Ideal.mulf_def]

/-- THE REFERENCE'S RESULT is the covariance array of its two arguments. -/
theorem result_eq (x0 : (⟨S8388608x3, .f32⟩ : BufTy).Contents (Elt Ideal)) (x1 : (⟨S8388608x4, .f32⟩ : BufTy).Contents (Elt Ideal)) : val_main_v79 (F := Ideal) x0 x1 = cov (n := 8388608) x0 x1 := by
  funext i
  obtain ⟨n, a, b, rfl⟩ : ∃ (n : Fin 8388608) (a b : Fin 3), i = ix3 n a b := ⟨i 0, i 1, i 2, eq_ix3 i⟩
  have hl : ∀ k : Fin 3, lidx_main_v79 (ix3 n a b) k = ix3 n a k := fun k =>
    funext fun d => Fin.ext (by match d with | ⟨0, _⟩ => rfl | ⟨1, _⟩ => rfl | ⟨2, _⟩ => rfl)
  have hr : ∀ k : Fin 3, ridx_main_v79 (ix3 n a b) k = ix3 n b k := fun k =>
    funext fun d => Fin.ext (by match d with | ⟨0, _⟩ => rfl | ⟨1, _⟩ => rfl | ⟨2, _⟩ => rfl)
  rw [val_main_v79_apply, cov_at]
  simp (config := { implicitDefEqProofs := false }) only [hl, hr, scaled_at]
  exact (cov9_eq_covSum (fun k => Ideal.exp (x0 (ix2 n k))) (rot9 (uq x1 n)) a b).symm

end Cert.ReferenceIdeal.RefValue

end
-- ==== Proof.lean ====
/-
  The covariance `M Mᵀ`, `M = R(q) · diag (exp s)`, of 8388608 rows of log-scales `s` and quaternions `q`: a tiled
  kernel against its array-level reference, equal on the extended reals.

  Both programs compute, row by row, the function `Cert.GsCov.cov` of the two argument arrays (Proof/Spec.lean).  The
  kernel forms each entry as `Σ k, (R i k · R j k) · (s k · s k)` for the upper triangle, copies it below the diagonal,
  stores nine numbers per row and its program re-reads them as 3 × 3 matrices; the reference forms `M` and contracts it
  with itself, `Σ k, (R i k · s k) · (R j k · s k)`.  The two arrangements agree because multiplication on the extended
  reals is commutative and associative; no cancellation is involved, so the finiteness of the inputs is not used.

  The frames of the two kernel programs are the generated ones; the reference's frame is its generated run with the
  result dropped; no idealization rewrite was applied, so `preserves` is trivial.
-/
import proofs.«121810_j23046794510522_1_alg».proof.Defs
import proofs.«121810_j23046794510522_1_alg».proof.Proof.Gen.Kernel
import proofs.«121810_j23046794510522_1_alg».proof.Proof.Gen.Kernel.Skeleton
import proofs.«121810_j23046794510522_1_alg».proof.Proof.Gen.Kernel.Launch
import proofs.«121810_j23046794510522_1_alg».proof.Proof.Gen.Kernel.Points
import proofs.«121810_j23046794510522_1_alg».proof.Proof.Gen.Kernel.Frame
import proofs.«121810_j23046794510522_1_alg».proof.Proof.Gen.KernelIdeal
import proofs.«121810_j23046794510522_1_alg».proof.Proof.Gen.KernelIdeal.Skeleton
import proofs.«121810_j23046794510522_1_alg».proof.Proof.Gen.KernelIdeal.Launch
import proofs.«121810_j23046794510522_1_alg».proof.Proof.Gen.KernelIdeal.Points
import proofs.«121810_j23046794510522_1_alg».proof.Proof.Gen.KernelIdeal.Frame
import proofs.«121810_j23046794510522_1_alg».proof.Proof.Gen.ReferenceIdeal
import proofs.«121810_j23046794510522_1_alg».proof.Proof.Gen.Pre_finite_inputs
import proofs.«121810_j23046794510522_1_alg».proof.Proof.Gen.ReferenceIdeal.Run
import proofs.«121810_j23046794510522_1_alg».proof.Proof.Gen.ReferenceIdeal.Read
import proofs.«121810_j23046794510522_1_alg».proof.Proof.KernelRun
import proofs.«121810_j23046794510522_1_alg».proof.Proof.ReferenceRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at `Cert.GsCov.cov` of arguments that agree. -/
theorem algebraic : Cert.algebraic_KernelIdeal_ReferenceIdeal := by
  intro m ρ m' ρ' _ hagree
  refine ⟨fun c => Cert.GsCov.cov (n := 8388608)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v79_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
